-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S4096x16384 : Shape := ⟨2, ![4096, 16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S16384 .f32) (main_arg1 : FVec F S16384 .f32) (main_arg2 : FVec F S4096x16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  main_v13
-- ==== Kernel.lean ====
abbrev S16384 : Shape := ⟨1, ![16384]⟩
abbrev S4096x16384 : Shape := ⟨2, ![4096, 16384]⟩
abbrev S1x16384 : Shape := ⟨2, ![1, 16384]⟩
abbrev S2x16384 : Shape := ⟨2, ![2, 16384]⟩
abbrev S128x16384 : Shape := ⟨2, ![128, 16384]⟩

abbrev nBuf : Space → Nat
  | .hbm => 7
  | .vmem => 5
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S4096x16384, .f32⟩
  | .hbm, ⟨3, _⟩ => ⟨S1x16384, .f32⟩
  | .hbm, ⟨4, _⟩ => ⟨S1x16384, .f32⟩
  | .hbm, ⟨5, _⟩ => ⟨S2x16384, .f32⟩
  | .hbm, ⟨6, _⟩ => ⟨S4096x16384, .f32⟩
  | .local _ .vmem, ⟨0, _⟩ => ⟨S2x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | .local _ .vmem, ⟨4, _⟩ => ⟨S128x16384, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16384_S1x16384_1 : S16384.BroadcastsInDim S1x16384 (![1] : Fin 1 → Fin S1x16384.rank)
  concatenates_S1x16384_S1x16384_S2x16384_d0 : Shape.Concatenates [S1x16384, S1x16384] S2x16384 0
  inb_S2x16384_S1x16384_0_0 : ∀ a, (![0, 0] : Fin 2 → Nat) a + S1x16384.size a ≤ S2x16384.size a
  h_S1x16384 : 0 < S1x16384.numel
  shapeCasts_S1x16384_S1x16384 : S1x16384.ShapeCasts S1x16384
  inb_S2x16384_S1x16384_1_0 : ∀ a, (![1, 0] : Fin 2 → Nat) a + S1x16384.size a ≤ S2x16384.size a
  inb_S128x16384_S128x16384_0_0 : ∀ a, (![0, 0] : Fin 2 → Nat) a + S128x16384.size a ≤ S128x16384.size a
  h_S128x16384 : 0 < S128x16384.numel
  broadcasts_S1x16384_S128x16384 : S1x16384.Broadcasts S128x16384
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x16384.size a ≤ S2x16384.size a
  hwx0_0 : ∀ i : grid0.Coords, EltTy.bits .f32 = 32 ∨ (Rect.block (s := S2x16384) S2x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S4096x16384.size a
  hwx0_1 : ∀ i : grid0.Coords, EltTy.bits .f32 = 32 ∨ (Rect.block (s := S4096x16384) S128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16384.size a ≤ S4096x16384.size a
  hwx0_2 : ∀ i : grid0.Coords, EltTy.bits .f32 = 32 ∨ (Rect.block (s := S4096x16384) S128x16384.size (cc0_transform_2 i) (hinb0_2 i)).WholeWords (EltTy.packing .f32)

variable [Facts₀]

abbrev win0_0 : Pipeline.Window sig grid0 :=
  Pipeline.Window.ofSpec (Memref.whole main_v2) S2x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S4096x16384 : Shape := ⟨2, ![4096, 16384]⟩
abbrev S_ : Shape := ⟨0, ![]⟩
abbrev S1x16384 : Shape := ⟨2, ![1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S4096x16384, .f32⟩
  | .hbm, ⟨3, _⟩ => ⟨S_, .f32⟩
  | .hbm, ⟨4, _⟩ => ⟨S16384, .f32⟩
  | .hbm, ⟨5, _⟩ => ⟨S16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S1x16384, .f32⟩
  | .hbm, ⟨10, _⟩ => ⟨S4096x16384, .f32⟩
  | .hbm, ⟨11, _⟩ => ⟨S4096x16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)

variable [Facts₀]

class Facts : Prop extends Facts₀ where

variable [Facts]
-- ==== Proof.Spec.lean ====
/-
  The sampled array as one function of the three inputs, on the extended reals:

      z (r, q) = mean q + noise (r, q) · (diag q + ε)        (r < 4096, q < 16384)

  where ε is the binary32 number with word 0x358637BD (the nearest float to 10⁻⁶). Both programs add, multiply and add
  in exactly this order at every entry, so no law of arithmetic is needed to compare them: the whole work is to
  read each program's layout operations (rows, stacks, broadcasts, blocks) at an index.
-/
import Idealize.ShloMosaic.PureOps.Ideal
import Idealize.ShloMosaic.Lib.ValueIdx

noncomputable section

namespace DiagSample

open Idealize.ShloMosaic Idealize.ShloMosaic.ValueIdx

/-- The jitter ε added to every diagonal entry, as an extended real. -/
abbrev jitter : EReal := Ideal.ofBits .f32 0x358637BD#32

/-- Entry (r, q) of the result: the mean at q plus the noise at (r, q) times the jittered diagonal entry at q. -/
def sample (mean diag : (⟨1, ![16384]⟩ : Shape).Idx → EReal) (noise : (⟨2, ![4096, 16384]⟩ : Shape).Idx → EReal) :
    (⟨2, ![4096, 16384]⟩ : Shape).Idx → EReal :=
  fun i => mean (ix1 (i 1)) + noise i * (diag (ix1 (i 1)) + jitter)

theorem sample_apply (mean diag : (⟨1, ![16384]⟩ : Shape).Idx → EReal) (noise : (⟨2, ![4096, 16384]⟩ : Shape).Idx → EReal)
    (i : (⟨2, ![4096, 16384]⟩ : Shape).Idx) :
    sample mean diag noise i = mean (ix1 (i 1)) + noise i * (diag (ix1 (i 1)) + jitter) := rfl

end DiagSample

end
-- ==== Proof.RefSide.lean ====
/-
  The reference program's result is the sampled array of Spec.lean.

  The reference forms ε as a vector, adds it to the diagonal, turns that vector and the mean into [1, 16384] rows,
  repeats each row 4096 times, multiplies the noise by the repeated scale and adds the repeated mean. Read at an
  entry (r, q), each row or repetition only forgets the row coordinate: a repeated row at (r, q) is the row at
  (0, q), which is the vector at q. So entry (r, q) is mean q + noise (r, q) · (diag q + ε).
-/
import proofs.«127552_j12945031431044_2_alg».proof.Proof.Gen.ReferenceIdeal.Read
import proofs.«127552_j12945031431044_2_alg».proof.Proof.Spec

noncomputable section

namespace Cert.ReferenceIdeal.RefValue

open Cert.ReferenceIdeal Cert.ReferenceIdeal.Read Idealize.ShloMosaic Idealize.ShloMosaic.ValueIdx DiagSample

/-- The mean's path: a repeated row read at i goes back to the vector at i's column. -/
theorem mean_col (i : S4096x16384.Idx) : idx_main_v5 (idx_main_v6 i) = ix1 (i 1) :=
  funext fun a => Fin.ext (by match a with | ⟨0, _⟩ => rfl)

/-- The scale's path: the same column. -/
theorem scale_col (i : S4096x16384.Idx) : idx_main_v2 (idx_main_v3 i) = ix1 (i 1) :=
  funext fun a => Fin.ext (by match a with | ⟨0, _⟩ => rfl)

/-- The reference's last stage, as a function of its three arguments, is the sampled array. -/
theorem reference_eq (x0 x1 : (⟨S16384, .f32⟩ : BufTy).Contents (Elt Ideal))
    (x2 : (⟨S4096x16384, .f32⟩ : BufTy).Contents (Elt Ideal)) :
    val_main_v7 (F := Ideal) x0 x1 x2 = sample x0 x1 x2 := by
  funext i
  rw [val_main_v7_apply, val_main_v6_apply, val_main_v5_apply, val_main_v4_apply, val_main_v3_apply,
    val_main_v2_apply, val_main_v1_apply, val_main_v0_apply, val_main_cst_apply, mean_col, scale_col]
  rfl

end Cert.ReferenceIdeal.RefValue

end
-- ==== Proof.LibStackRows.lean ====
/-
  Two vectors of extent n stacked as the rows of a [2, n] array, read at an index, for any extent n and any element
  type: each vector is first made a [1, n] row (a broadcast_in_dim along axis 1) and the two rows are concatenated
  along axis 0. Entry (0, q) of the stack is entry q of the first vector, entry (1, q) is entry q of the second.
  The two steps are also stated alone: a [1, n] row read at j is the vector at j's second coordinate, and the
  concatenation of any two [1, n] arrays read at (0, q) or (1, q) is the first or the second one at (0, q).
-/
import Idealize.ShloMosaic.Lib.Pipeline.Value
import Idealize.ShloMosaic.Lib.ValueIdx

namespace Idealize.ShloMosaic.LibStackRows

open Idealize.ShloMosaic Idealize.ShloMosaic.ValueIdx

variable {α : Type}

/-- A vector of extent n as a [1, n] row: the row at j is the vector at j's second coordinate (the first is 0). -/
theorem row_apply {n : Nat}
    (hb : (⟨1, ![n]⟩ : Shape).BroadcastsInDim (⟨2, ![1, n]⟩ : Shape) (![1] : Fin 1 → Fin 2))
    (a : (⟨1, ![n]⟩ : Shape).Idx → α) (j : (⟨2, ![1, n]⟩ : Shape).Idx) :
    broadcastInDim (⟨2, ![1, n]⟩ : Shape) (![1] : Fin 1 → Fin 2) hb a j = a (ix1 (j 1)) := by
  refine broadcastInDim_apply _ hb a j (ix1 (j 1)) (fun d => ?_)
  match d with
  | ⟨0, _⟩ =>
    show (j 1).val = if n = 1 then 0 else (j 1).val
    have hj : (j 1).val < n := idx2_lt1 j
    split
    · omega
    · rfl

/-- Two [1, n] arrays concatenated along axis 0, read in row 0: the first array. -/
theorem concat_rows_top {n : Nat}
    (hc : Shape.Concatenates [(⟨2, ![1, n]⟩ : Shape), (⟨2, ![1, n]⟩ : Shape)] (⟨2, ![2, n]⟩ : Shape) (0 : Fin 2))
    (x y : (⟨2, ![1, n]⟩ : Shape).Idx → α) (q : Fin n) :
    concatenate (⟨2, ![2, n]⟩ : Shape) (0 : Fin 2) [⟨(⟨2, ![1, n]⟩ : Shape), x⟩, ⟨(⟨2, ![1, n]⟩ : Shape), y⟩] hc
      (ix2 (0 : Fin 2) q) = x (ix2 (0 : Fin 1) q) := by
  refine concatenate_pair_apply_left (0 : Fin 2) x y hc (ix2 (0 : Fin 2) q) rfl (ix2 (0 : Fin 1) q) (fun b => ?_)
  match b with
  | ⟨0, _⟩ => rfl
  | ⟨1, _⟩ => rfl

/-- Two [1, n] arrays concatenated along axis 0, read in row 1: the second array (at its one row, 0). -/
theorem concat_rows_bottom {n : Nat}
    (hc : Shape.Concatenates [(⟨2, ![1, n]⟩ : Shape), (⟨2, ![1, n]⟩ : Shape)] (⟨2, ![2, n]⟩ : Shape) (0 : Fin 2))
    (x y : (⟨2, ![1, n]⟩ : Shape).Idx → α) (q : Fin n) :
    concatenate (⟨2, ![2, n]⟩ : Shape) (0 : Fin 2) [⟨(⟨2, ![1, n]⟩ : Shape), x⟩, ⟨(⟨2, ![1, n]⟩ : Shape), y⟩] hc
      (ix2 (1 : Fin 2) q) = y (ix2 (0 : Fin 1) q) := by
  refine concatenate_pair_apply_right (0 : Fin 2) x y hc (ix2 (1 : Fin 2) q) rfl rfl (ix2 (0 : Fin 1) q) (fun b hb => ?_) ?_
  · match b with
    | ⟨0, _⟩ => exact absurd rfl hb
    | ⟨1, _⟩ => rfl
  · show 0 + 1 = 1
    rfl

/-- The stack of two vectors read in row 0 is the first vector. -/
theorem stack_top {n : Nat}
    (hb : (⟨1, ![n]⟩ : Shape).BroadcastsInDim (⟨2, ![1, n]⟩ : Shape) (![1] : Fin 1 → Fin 2))
    (hc : Shape.Concatenates [(⟨2, ![1, n]⟩ : Shape), (⟨2, ![1, n]⟩ : Shape)] (⟨2, ![2, n]⟩ : Shape) (0 : Fin 2))
    (a b : (⟨1, ![n]⟩ : Shape).Idx → α) (q : Fin n) :
    concatenate (⟨2, ![2, n]⟩ : Shape) (0 : Fin 2)
      [⟨(⟨2, ![1, n]⟩ : Shape), broadcastInDim (⟨2, ![1, n]⟩ : Shape) (![1] : Fin 1 → Fin 2) hb a⟩,
       ⟨(⟨2, ![1, n]⟩ : Shape), broadcastInDim (⟨2, ![1, n]⟩ : Shape) (![1] : Fin 1 → Fin 2) hb b⟩] hc
      (ix2 (0 : Fin 2) q) = a (ix1 q) :=
  (concat_rows_top hc _ _ q).trans (row_apply hb a (ix2 (0 : Fin 1) q))

/-- The stack of two vectors read in row 1 is the second vector. -/
theorem stack_bottom {n : Nat}
    (hb : (⟨1, ![n]⟩ : Shape).BroadcastsInDim (⟨2, ![1, n]⟩ : Shape) (![1] : Fin 1 → Fin 2))
    (hc : Shape.Concatenates [(⟨2, ![1, n]⟩ : Shape), (⟨2, ![1, n]⟩ : Shape)] (⟨2, ![2, n]⟩ : Shape) (0 : Fin 2))
    (a b : (⟨1, ![n]⟩ : Shape).Idx → α) (q : Fin n) :
    concatenate (⟨2, ![2, n]⟩ : Shape) (0 : Fin 2)
      [⟨(⟨2, ![1, n]⟩ : Shape), broadcastInDim (⟨2, ![1, n]⟩ : Shape) (![1] : Fin 1 → Fin 2) hb a⟩,
       ⟨(⟨2, ![1, n]⟩ : Shape), broadcastInDim (⟨2, ![1, n]⟩ : Shape) (![1] : Fin 1 → Fin 2) hb b⟩] hc
      (ix2 (1 : Fin 2) q) = b (ix1 q) :=
  (concat_rows_bottom hc _ _ q).trans (row_apply hb b (ix2 (0 : Fin 1) q))

end Idealize.ShloMosaic.LibStackRows
-- ==== Proof.KernelBlock.lean ====
/-
  The kernel's result array is the sampled array of Spec.lean.

  The kernel is launched on a [2, 16384] array holding the mean in row 0 and the diagonal in row 1 (built before the
  launch by stacking the two vectors as rows), and on the noise. Its 32 grid points each take the whole stack and a
  block of 128 consecutive rows of the noise, and write the block of the same rows of the result: at entry (p, q) of
  the block, stack (0, q) + noise block (p, q) · (stack (1, q) + ε). Row p of point t's block is row 128·t + p of the
  array and the columns are not cut, so this is entry (128·t + p, q) of the sampled array; the 32 blocks cover the
  4096 rows (row r lies in the block of point r / 128), so the array ends holding the sampled array everywhere.
-/
import proofs.«127552_j12945031431044_2_alg».proof.Proof.Gen.KernelIdeal.Value
import proofs.«127552_j12945031431044_2_alg».proof.Proof.Spec
import proofs.«127552_j12945031431044_2_alg».proof.Proof.LibStackRows
import Idealize.ShloMosaic.Lib.StableHlo.Run

set_option maxRecDepth 16384

noncomputable section

namespace Cert.KernelIdeal.Sampled

open Cert.KernelIdeal Cert.KernelIdeal.Gen Cert.KernelIdeal.Value Idealize.ShloMosaic Idealize.ShloMosaic.TcCoe
open Idealize.SL.Sem Idealize.ShloMosaic.StableHlo Idealize.ShloMosaic.ValueIdx Idealize.ShloMosaic.LibStackRows DiagSample
open Idealize.ShloMosaic.Pipeline (Dat)

variable (m : (ℓ : Loc nD τ sig) → Buf (Elt Ideal) ℓ) (ρ : Dev nD → PrngReg)

/-! ## The stacked parameters -/

/-- The kernel's first operand when the kernel is launched, as a function to the extended reals. -/
abbrev stackAt (c : Dev nD) : S2x16384.Idx → EReal := V m c main_v2

/-- Its second operand, the noise, likewise. -/
abbrev noiseAt (c : Dev nD) : S4096x16384.Idx → EReal := V m c main_arg2

/-- Nothing before the launch writes the noise. -/
theorem noise_eq (c : Dev nD) : noiseAt m c = m ((c : Thread nD τ).loc main_arg2) := V_main_arg2 m c

/-- When the kernel is launched, its first operand is the stack of the mean and the diagonal as launched. -/
theorem params_eq (c : Dev nD) :
    stackAt m c
      = concatenate S2x16384 0
          [⟨S1x16384, broadcastInDim S1x16384 ![1] bcast_S16384_S1x16384_1 (m ((c : Thread nD τ).loc main_arg0))⟩,
           ⟨S1x16384, broadcastInDim S1x16384 ![1] bcast_S16384_S1x16384_1 (m ((c : Thread nD τ).loc main_arg1))⟩]
          concatenates_S1x16384_S1x16384_S2x16384_d0 := by
  dsimp only [stackAt, Gen.V, Gen.hostOps0]; after_results

/-! ## One grid point's block -/

/-- What the body leaves at entry y of its output block, from the two input blocks: stack (0, q) plus the noise
    block at y times (stack (1, q) + ε), q the column of y. -/
theorem body_at (x0 : Vec Ideal S2x16384 .f32) (x1 : Vec Ideal S128x16384 .f32) (y : S128x16384.Idx) :
    out0_2 x0 x1 y
      = x0 (ix2 (n0 := 2) (n1 := 16384) 0 (y 1)) + x1 y * (x0 (ix2 (n0 := 2) (n1 := 16384) 1 (y 1)) + jitter) := by
  unfold out0_2
  refine (canon2_eq (View.ld x0 r0_0) (View.ld x1 r0_2) (View.ld x0 r0_1) y).trans ?_
  show x0 (r0_0.idx (ix2_0 y)) + x1 (r0_2.idx (ix2_1 y)) * (x0 (r0_1.idx (ix2_2 y)) + jitter) = _
  have e0 : r0_0.idx (ix2_0 y) = ix2 (n0 := 2) (n1 := 16384) 0 (y 1) := by
    funext a; apply Fin.ext
    match a with
    | ⟨0, _⟩ => show 0 + 1 * 0 = 0; rfl
    | ⟨1, _⟩ => show 0 + 1 * (y 1).val = (y 1).val; omega
  have e1 : r0_1.idx (ix2_2 y) = ix2 (n0 := 2) (n1 := 16384) 1 (y 1) := by
    funext a; apply Fin.ext
    match a with
    | ⟨0, _⟩ => show 1 + 1 * 0 = 1; rfl
    | ⟨1, _⟩ => show 0 + 1 * (y 1).val = (y 1).val; omega
  have e2 : r0_2.idx (ix2_1 y) = y := by
    funext a; apply Fin.ext
    match a with
    | ⟨0, _⟩ => show 0 + 1 * (y 0).val = (y 0).val; omega
    | ⟨1, _⟩ => show 0 + 1 * (y 1).val = (y 1).val; omega
  rw [e0, e1, e2]

/-- The printed index maps over the 32 points: the stack's block is always block (0, 0); the noise's block is the
    result's; neither is cut along the columns. -/
theorem index_facts : ∀ t : Fin cfg0.N, win0_0.index t (0 : Fin 2) = 0 ∧ win0_0.index t (1 : Fin 2) = 0
    ∧ win0_1.index t (0 : Fin 2) = win0_2.index t (0 : Fin 2) ∧ win0_1.index t (1 : Fin 2) = 0
    ∧ win0_2.index t (1 : Fin 2) = 0 :=
  (by decide +kernel : ∀ t : Fin grid0.N, _)

/-- Each of the 32 row blocks is some point's. -/
theorem index_onto : ∀ b : Fin 32, ∃ t : Fin cfg0.N, win0_2.index t = ![b.val, 0] :=
  (by decide +kernel : ∀ b : Fin 32, ∃ t : Fin grid0.N, win0_2.index t = ![b.val, 0])

/-- What point t writes back is point t's block of the sampled array of the inputs as launched. -/
theorem block_eq (c : Dev nD) (t : Fin cfg0.N) :
    (dats m 0 c).flushed 2 t = ((cfg0.win 2).blk t).view.read (Elt Ideal)
      (sample (m ((c : Thread nD τ).loc main_arg0)) (m ((c : Thread nD τ).loc main_arg1)) (m ((c : Thread nD τ).loc main_arg2))) := by
  rw [flushed2]
  obtain ⟨h00, h01, h10, h11, h21⟩ := index_facts t
  funext j
  show out0_2 (iblk m c 0 t) (iblk m c 1 t) j = sample _ _ _ (((cfg0.win 2).blk t).view.emb j)
  refine (body_at (iblk m c 0 t) (iblk m c 1 t) j).trans ?_
  show stackAt m c (((cfg0.win 0).blk t).view.emb (ix2 (n0 := 2) (n1 := 16384) 0 (j 1)))
      + noiseAt m c (((cfg0.win 1).blk t).view.emb j)
        * (stackAt m c (((cfg0.win 0).blk t).view.emb (ix2 (n0 := 2) (n1 := 16384) 1 (j 1))) + jitter) = _
  have hj1 : (j 1).val < 16384 := (j 1).isLt
  have hp0 : ((cfg0.win 0).blk t).view.emb (ix2 (n0 := 2) (n1 := 16384) 0 (j 1)) = ix2 (n0 := 2) (n1 := 16384) 0 (j 1) := by
    funext a; apply Fin.ext
    match a with
    | ⟨0, _⟩ => show win0_0.index t (0 : Fin 2) * 2 + 1 * 0 = 0; omega
    | ⟨1, _⟩ => show win0_0.index t (1 : Fin 2) * 16384 + 1 * (j 1).val = (j 1).val; omega
  have hp1 : ((cfg0.win 0).blk t).view.emb (ix2 (n0 := 2) (n1 := 16384) 1 (j 1)) = ix2 (n0 := 2) (n1 := 16384) 1 (j 1) := by
    funext a; apply Fin.ext
    match a with
    | ⟨0, _⟩ => show win0_0.index t (0 : Fin 2) * 2 + 1 * 1 = 1; omega
    | ⟨1, _⟩ => show win0_0.index t (1 : Fin 2) * 16384 + 1 * (j 1).val = (j 1).val; omega
  have hx : ((cfg0.win 1).blk t).view.emb j = ((cfg0.win 2).blk t).view.emb j := by
    funext a; apply Fin.ext
    match a with
    | ⟨0, _⟩ => show win0_1.index t (0 : Fin 2) * 128 + 1 * (j 0).val = win0_2.index t (0 : Fin 2) * 128 + 1 * (j 0).val; omega
    | ⟨1, _⟩ => show win0_1.index t (1 : Fin 2) * 16384 + 1 * (j 1).val = win0_2.index t (1 : Fin 2) * 16384 + 1 * (j 1).val; omega
  have hcol : (((cfg0.win 2).blk t).view.emb j) 1 = j 1 :=
    Fin.ext (by show win0_2.index t (1 : Fin 2) * 16384 + 1 * (j 1).val = (j 1).val; omega)
  rw [hp0, hp1, hx, params_eq, noise_eq, sample_apply, hcol]
  have e0 := stack_top (n := 16384) bcast_S16384_S1x16384_1 concatenates_S1x16384_S1x16384_S2x16384_d0
    (m ((c : Thread nD τ).loc main_arg0)) (m ((c : Thread nD τ).loc main_arg1)) (j 1)
  have e1 := stack_bottom (n := 16384) bcast_S16384_S1x16384_1 concatenates_S1x16384_S1x16384_S2x16384_d0
    (m ((c : Thread nD τ).loc main_arg0)) (m ((c : Thread nD τ).loc main_arg1)) (j 1)
  rw [e0, e1]

/-! ## The blocks cover the array -/

/-- An index of the array is in point t's block iff each coordinate is in the block's range on its axis. -/
theorem mem_block (t : Fin cfg0.N) (i : S4096x16384.Idx) :
    i ∈ ((cfg0.win 2).blk t).view.set ↔ ∀ a : Fin 2, win0_2.index t a * S128x16384.size a ≤ (i a).val
      ∧ (i a).val < win0_2.index t a * S128x16384.size a + S128x16384.size a := by
  show i ∈ ((View.whole main_v3).slice (win0_2.rect t)).set ↔ _
  rw [View.set_slice_whole, Rect.mem_set_unit]
  exact Iff.rfl

/-- Every entry (r, q) of the result lies in the block some point writes back: the point of row block r / 128. -/
theorem cover (i : S4096x16384.Idx) :
    ∃ t : Fin cfg0.N, (cfg0.win 2).flush t = true ∧ i ∈ ((cfg0.win 2).blk t).view.set := by
  have hi0 : (i 0).val < 4096 := (i 0).isLt
  have hi1 : (i 1).val < 16384 := (i 1).isLt
  obtain ⟨t, ht⟩ := index_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 16384 ≤ (i 1).val ∧ (i 1).val < win0_2.index t (1 : Fin 2) * 16384 + 16384
    omega

/-! ## The array after the run -/

/-- After the 32 points the result array is the sampled array of the inputs as launched. -/
theorem final (c : Dev nD) :
    (dats m 0 c).arrAt 2 cfg0.N
      = sample (m ((c : Thread nD τ).loc main_arg0)) (m ((c : Thread nD τ).loc main_arg1)) (m ((c : Thread nD τ).loc main_arg2)) :=
  (dats m 0 c).arrAt_eq_of_cover 2
    (sample (m ((c : Thread nD τ).loc main_arg0)) (m ((c : Thread nD τ).loc main_arg1)) (m ((c : Thread nD τ).loc main_arg2)))
    (fun t _ => block_eq m c t) cover

/-- Every weakly fair execution of the kernel program terminates with the result at the sampled array of the inputs
    and the inputs unchanged. -/
theorem run : θ_run defs (onTc (τ := τ) (main (F := Ideal))) ⟨m, fun _ => 0, ρ⟩ fun r => ∀ c : Dev nD,
      r.2.mem ((c : Thread nD τ).loc main_v3)
        = sample (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Sampled

end
-- ==== Proof.lean ====
/-
  The kernel and its reference compute the same array on the extended reals.

  Both programs produce z (r, q) = mean q + noise (r, q) · (diag q + ε), r < 4096, q < 16384, with ε the binary32
  number of word 0x358637BD, and both perform the two additions and the product in this order at every entry
  (Proof/Spec.lean). The reference does it on whole arrays after repeating the mean and the scale along the rows
  (Proof/RefSide.lean). The kernel stacks the mean and the diagonal as the two rows of one small array and sends 32
  grid points over blocks of 128 rows of the noise; each point writes its block of the sampled array and the blocks
  cover it (Proof/KernelBlock.lean, over the stack read at an index in Proof/LibStackRows.lean). No law of
  arithmetic is used, so the finiteness of the inputs is never opened. The three frames are the generated frame runs
  (the reference's is its run with the result dropped), and the idealized kernel is the kernel's own text, so the
  preservation claim has no conjunct.
-/
import proofs.«127552_j12945031431044_2_alg».proof.Defs
import proofs.«127552_j12945031431044_2_alg».proof.Proof.Gen.Kernel
import proofs.«127552_j12945031431044_2_alg».proof.Proof.Gen.Kernel.Skeleton
import proofs.«127552_j12945031431044_2_alg».proof.Proof.Gen.Kernel.Launch
import proofs.«127552_j12945031431044_2_alg».proof.Proof.Gen.Kernel.Points
import proofs.«127552_j12945031431044_2_alg».proof.Proof.Gen.Kernel.Frame
import proofs.«127552_j12945031431044_2_alg».proof.Proof.Gen.KernelIdeal
import proofs.«127552_j12945031431044_2_alg».proof.Proof.Gen.KernelIdeal.Skeleton
import proofs.«127552_j12945031431044_2_alg».proof.Proof.Gen.KernelIdeal.Launch
import proofs.«127552_j12945031431044_2_alg».proof.Proof.Gen.KernelIdeal.Points
import proofs.«127552_j12945031431044_2_alg».proof.Proof.Gen.KernelIdeal.Frame
import proofs.«127552_j12945031431044_2_alg».proof.Proof.Gen.ReferenceIdeal
import proofs.«127552_j12945031431044_2_alg».proof.Proof.Gen.KernelIdeal.Value
import proofs.«127552_j12945031431044_2_alg».proof.Proof.Gen.ReferenceIdeal.Run
import proofs.«127552_j12945031431044_2_alg».proof.Proof.Gen.ReferenceIdeal.Read
import proofs.«127552_j12945031431044_2_alg».proof.Proof.Gen.Pre_finite_inputs
import proofs.«127552_j12945031431044_2_alg».proof.Proof.Spec
import proofs.«127552_j12945031431044_2_alg».proof.Proof.RefSide
import proofs.«127552_j12945031431044_2_alg».proof.Proof.KernelBlock
import Idealize.ShloMosaic.Adequacy
import Idealize.ShloMosaic.Init

noncomputable section

namespace Cert.Proof

open Idealize.ShloMosaic Idealize.ShloMosaic.TcCoe Idealize.SL.Sem DiagSample

/-- The kernel as printed runs to the end and leaves its inputs as they were. -/
theorem frame_kernel : Cert.frame_Kernel :=
  fun m ρ _ => Cert.Kernel.Gen.frame m ρ

/-- So does the idealized kernel. -/
theorem frame_kernel_ideal : Cert.frame_KernelIdeal :=
  fun m ρ _ => Cert.KernelIdeal.Gen.frame m ρ

/-- So does the reference: its run with the result's value dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the three inputs, both programs end with the sampled array of those inputs. -/
theorem algebraic : Cert.algebraic_KernelIdeal_ReferenceIdeal := by
  intro m ρ m' ρ' _ hagree
  refine ⟨fun c => sample (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Sampled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
